-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S8192x8192 : Shape := ⟨2, ![8192, 8192]⟩
abbrev S512x1 : Shape := ⟨2, ![512, 1]⟩
abbrev S512x2048 : Shape := ⟨2, ![512, 2048]⟩

abbrev nBuf : Space → Nat
  | .hbm => 6
  | .vmem => 4
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .f32⟩
  | .hbm, ⟨3, _⟩ => ⟨S8192, .f32⟩
  | .hbm, ⟨4, _⟩ => ⟨S8192x1, .f32⟩
  | .hbm, ⟨5, _⟩ => ⟨S8192x8192, .f32⟩
  | .local _ .vmem, ⟨0, _⟩ => ⟨S512x1, .f32⟩
  | .local _ .vmem, ⟨1, _⟩ => ⟨S512x1, .f32⟩
  | .local _ .vmem, ⟨2, _⟩ => ⟨S512x2048, .f32⟩
  | .local _ .vmem, ⟨3, _⟩ => ⟨S512x2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c2048_i32 : BitVec 32 := 2048#32
  let v1 : BitVec 32 := Scalar.muli arg1 c2048_i32
  let c2048_i32_0 : BitVec 32 := 2048#32
  let v2 : BitVec 32 := Scalar.addi v1 c2048_i32_0
  let v3 : BitVec 1 := Scalar.cmpi .slt v0 v2
  let c512_i32_1 : BitVec 32 := 512#32
  let v4 : BitVec 32 := Scalar.addi v0 c512_i32_1
  let v5 : BitVec 1 := Scalar.cmpi .slt v1 v4
  let v6 : BitVec 1 := Scalar.andi v3 v5
  let v7 : BitVec 32 := Scalar.extui v6
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c2048_i32 : BitVec 32 := 2048#32
  let v1 : BitVec 32 := Scalar.muli arg1 c2048_i32
  let c2048_i32_0 : BitVec 32 := 2048#32
  let v2 : BitVec 32 := Scalar.addi v1 c2048_i32_0
  let v3 : BitVec 1 := Scalar.cmpi .slt v0 v2
  let c512_i32_1 : BitVec 32 := 512#32
  let v4 : BitVec 32 := Scalar.addi v0 c512_i32_1
  let v5 : BitVec 1 := Scalar.cmpi .slt v1 v4
  let v6 : BitVec 1 := Scalar.andi v3 v5
  let v_true : BitVec 1 := 1#1
  let v9 : BitVec 1 := Scalar.xori v6 v_true
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d0_w32 : S512x2048.Iotas .tc 32 [0]
  iota_S512x2048_d1_w32 : S512x2048.Iotas .tc 32 [1]
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)

variable [Facts₀]

abbrev win0_0 : Pipeline.Window sig grid0 :=
  Pipeline.Window.ofSpec (Memref.whole main_v2) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8192x8192 : Shape := ⟨2, ![8192, 8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x1, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_v2 : Ref sig .tc := ⟨.hbm, 16, rfl⟩

abbrev nD : Nat := 1
abbrev τ : Topo := Topo.v7x

variable {F : FTy → Type} [FloatOps F]

class Facts₀ : Prop where
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.KRuns.lean ====
/-
  The tile body, run once in each of its two cases.

  At a grid point (i, j) the body tests whether the 512 × 2048 tile of the output that the point owns meets the
  diagonal — the row interval [512 i, 512 i + 512) against the column interval [2048 j, 2048 j + 2048) — and then
  does one of two things.  A tile that meets the diagonal is overwritten with the entrywise choice "the column
  vector's entry of this row where the row counter equals the column counter, zero elsewhere"; a tile that misses
  it is overwritten with zeros.  The second test is the negation of the first, so exactly one of the two branches
  runs.  Either way the body loads the 512 × 1 column block, reads the output tile once (the value is not used) and
  stores the whole tile once; the column block is left as it was found.

  Each run below is stated for any pair of whole staging buffers: from the column block at known contents and the
  output tile at any contents, the body ends with the column block unchanged and the output tile overwritten by
  the list of stores the run found (one store covering the tile).
-/
import proofs.«144951_j64776696758817_2_alg».proof.Proof.Gen.Kernel.Frame
import proofs.«144951_j64776696758817_2_alg».proof.Proof.Gen.Kernel.Skeleton
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile that meets the diagonal (first test true, second false): the stores the body makes into the output
    tile, with the proof that the body runs and leaves the column block as it was and the tile overwritten by
    them. -/
noncomputable def runDiag (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) :
    { L1 : List (View.Piece (Elt F) S512x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__diag_kernel i arg2 harg2 arg3 harg3) K } := by
  refine ⟨?_, fun E K => ?run⟩
  case run =>
    simp only [cc0__diag_kernel_eq_skeleton]; unfold cc0__diag_kernel_skel
    unfold owns
    iintro ⟨⟨%f0, %hf0, H0⟩, ⟨%d1, %f1, -, H1⟩, Hk⟩
    obtain rfl := harg2.eq_unread hf0
    sl_exec (disch := first | exact h1 | exact h2)
    sl_step
    iapply Hk
    isplitl [H0]
    · iexists _; isplitr; · ipureintro; exact harg2.read_unread _
      iexact H0
    iexists _; iexact H1

set_option maxHeartbeats 1000000 in
/-- A tile that misses the diagonal (first test false, second true): the stores the body makes into the output
    tile, with the proof that the body runs and leaves the column block as it was and the tile overwritten by
    them. -/
noncomputable def runOff (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) :
    { L1 : List (View.Piece (Elt F) S512x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__diag_kernel i arg2 harg2 arg3 harg3) K } := by
  refine ⟨?_, fun E K => ?run⟩
  case run =>
    simp only [cc0__diag_kernel_eq_skeleton]; unfold cc0__diag_kernel_skel
    unfold owns
    iintro ⟨⟨%f0, %hf0, H0⟩, ⟨%d1, %f1, -, H1⟩, Hk⟩
    obtain rfl := harg2.eq_unread hf0
    sl_exec (disch := first | exact h1 | exact h2)
    sl_step
    iapply Hk
    isplitl [H0]
    · iexists _; isplitr; · ipureintro; exact harg2.read_unread _
      iexact H0
    iexists _; iexact H1

end Cert.Kernel.Tile

end
-- ==== Proof.KBody.lean ====
/-
  The tiled program runs, and the matrix it writes is named.

  The grid has 16 × 4 points; point (i, j) owns the 512 × 2048 tile of the 8192 × 8192 output whose rows start at
  512 i and whose columns start at 2048 j, and reads the 512 × 1 block of the column vector whose rows start at
  512 i.  The two tests of the body are complementary at every point (decided once over the 64 points), so at every
  point exactly one branch runs and the whole tile is overwritten: after point t the output's staging buffer holds
  `tileAt t` — what the one store of the branch taken there leaves — and the column block's buffer holds the block
  as it was fetched.  The output tile is written back at every point, so whatever the buffer held before the body
  is irrelevant.

  From this the pipeline's launch rule gives the run of the whole program: every weakly fair execution terminates
  without a fault, the output array ends at the blocks `tileAt` written back, and every other array is as the
  region found it — in particular the two argument arrays are unchanged.
-/
import proofs.«144951_j64776696758817_2_alg».proof.Proof.KRuns

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tests are complementary -/

/-- At every grid point the second test (the tile misses the diagonal) holds exactly when the first (the tile meets
    it) fails: the second is the first's negation, computed on the same two intervals. -/
theorem tests_compl : ∀ t : Fin cfg0.N, k0_cond2 (grid0.coords t) = 1#1 ↔ ¬k0_cond1 (grid0.coords t) = 1#1 :=
  (by decide +kernel : ∀ t : Fin grid0.N, k0_cond2 (grid0.coords t) = 1#1 ↔ ¬k0_cond1 (grid0.coords t) = 1#1)

/-! ## What a branch leaves in the output tile -/

/-- One staging buffer of the output window, through which a tile's contents are stated (the choice does not
    matter: the stores cover the tile). -/
abbrev VO : View sig .tc .vmem S512x2048 .f32 := (Memref.whole cc0_stg1_0 : Memref sig .tc .vmem S512x2048 .f32).view
/-- Each window's current staging buffer at point `t`, as the pipeline passes it to the body. -/
abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)

/-- The stores of a tile that meets the diagonal cover the tile. -/
theorem coverDiag (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) (y : S512x2048.Idx) :
    ∃ pc ∈ (runDiag c i arg2 harg2 arg3 harg3 h1 h2 x0).1, y ∈ pc.1.set :=
  View.cover_of_tiledL (runDiag c i arg2 harg2 arg3 harg3 h1 h2 x0).1 S512x2048.size (by sl_kernel_rfl) y

/-- What a tile that meets the diagonal holds after the body: its stores read back. -/
def outDiag (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) : Vec F S512x2048 .f32 :=
  VO.read (Elt F) (VO.writes (Elt F) VO.junk (runDiag c i arg2 harg2 arg3 harg3 h1 h2 x0).1)

/-- The stores of a tile that misses the diagonal cover the tile. -/
theorem coverOff (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) (y : S512x2048.Idx) :
    ∃ pc ∈ (runOff c i arg2 harg2 arg3 harg3 h1 h2 x0).1, y ∈ pc.1.set :=
  View.cover_of_tiledL (runOff c i arg2 harg2 arg3 harg3 h1 h2 x0).1 S512x2048.size (by sl_kernel_rfl) y

/-- What a tile that misses the diagonal holds after the body: its stores read back. -/
def outOff (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) : Vec F S512x2048 .f32 :=
  VO.read (Elt F) (VO.writes (Elt F) VO.junk (runOff c i arg2 harg2 arg3 harg3 h1 h2 x0).1)

/-- What the output's staging buffer holds after the body at point `t`: the branch the first test selects there,
    run on the point's buffers and on the column block of the point. -/
def tileAt (c : Dev nD) (t : Fin cfg0.N) : Vec F S512x2048 .f32 :=
  if h1 : k0_cond1 (grid0.coords t) = 1#1 then
    outDiag c (grid0.coords t) (ms0 t) (hs0 t) (ms1 t) (hs1 t) h1 (fun h2 => (tests_compl t).mp h2 h1) (iblk m c 0 t)
  else
    outOff c (grid0.coords t) (ms0 t) (hs0 t) (ms1 t) (hs1 t) h1 ((tests_compl t).mpr h1) (iblk m c 0 t)

theorem tileAt_diag (c : Dev nD) (t : Fin cfg0.N) (h1 : k0_cond1 (grid0.coords t) = 1#1) :
    tileAt m c t = outDiag c (grid0.coords t) (ms0 t) (hs0 t) (ms1 t) (hs1 t) h1 (fun h2 => (tests_compl t).mp h2 h1) (iblk m c 0 t) :=
  dif_pos h1

theorem tileAt_off (c : Dev nD) (t : Fin cfg0.N) (h1 : ¬k0_cond1 (grid0.coords t) = 1#1) :
    tileAt m c t = outOff c (grid0.coords t) (ms0 t) (hs0 t) (ms1 t) (hs1 t) h1 ((tests_compl t).mpr h1) (iblk m c 0 t) :=
  dif_neg h1

/-! ## The pipeline's proof data -/

/-- The proof data of the one pipeline on core `c`: the arrays as the region finds them; after the body at point
    `t` the column block's buffer at its block and the output's at `tileAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = tileAt m c t := by dsimp only [dats]

/-- The column block's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`: the invariant, the core's debts, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- What the body returns of the output's buffer, in the cases the launch rule distinguishes: a point at which the
    body stores nothing and the tile is not written back would hand the buffer back as found; every other point
    leaves it at the stated contents. -/
def tilePost (c : Dev nD) (t : Fin cfg0.N) : sProp 𝕄 :=
  match cfg0.idle 1 (cfg0.grid.coords t) with
  | true =>
    match (cfg0.win 1).flush t with
    | false => iprop(∃ d, owns (c : Thread nD τ) (ms1 t) fullShare ((dats m 0 c).before 1 t d))
    | true => owns (c : Thread nD τ) (ms1 t) fullShare ((dats m 0 c).after 1 t)
  | false => owns (c : Thread nD τ) (ms1 t) fullShare ((dats m 0 c).after 1 t)

/-- The tile is written back at every point, so the first of those cases never arises. -/
theorem tilePost_eq (c : Dev nD) (t : Fin cfg0.N) :
    tilePost m c t = owns (c : Thread nD τ) (ms1 t) fullShare ((dats m 0 c).after 1 t) := by
  unfold tilePost
  rw [flush0_1 t]
  cases cfg0.idle 1 (cfg0.grid.coords t) <;> rfl

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ tilePost m c t)

set_option maxHeartbeats 800000 in
/-- The body at any point: the column block's buffer holds its block; the first test says which branch runs, the
    second is then decided by complementarity; that branch's run applies; the invariant passes through unread and
    the core owes nothing throughout; the tile ends at the branch's stores read back, since they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [tilePost_eq, show (dats m 0 c).Φ t.succ = (dats m 0 c).Φ t.castSucc from rfl,
    show (dats m 0 c).owesAt () t.succ = (dats m 0 c).owesAt () t.castSucc from rfl,
    after0_0, after0_1]
  by_cases h1 : k0_cond1 (grid0.coords t) = 1#1
  · rw [tileAt_diag m c t h1]
    unfold outDiag
    iintro ⟨HΦ, Ho, ⟨%d0, H0⟩, ⟨%d1, H1⟩⟩
    iapply ((runDiag c (grid0.coords t) _ _ _ _ h1 (fun h2 => (tests_compl t).mp h2 h1) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverDiag c _ _ _ _ _ _ _ _)
  · rw [tileAt_off m c t h1]
    unfold outOff
    iintro ⟨HΦ, Ho, ⟨%d0, H0⟩, ⟨%d1, H1⟩⟩
    iapply ((runOff c (grid0.coords t) _ _ _ _ h1 ((tests_compl t).mpr h1) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverOff c _ _ _ _ _ _ _ _)

/-- The launch rule's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- From any memory with zero counters every weakly fair execution of the program terminates, and every final
    state has each array of the pipeline at what the launch rule computes from the proof data — the output array at
    the tiles written back — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tile

end
-- ==== Proof.KIRuns.lean ====
/-
  The tile body, run once in each of its two cases.

  At a grid point (i, j) the body tests whether the 512 × 2048 tile of the output that the point owns meets the
  diagonal — the row interval [512 i, 512 i + 512) against the column interval [2048 j, 2048 j + 2048) — and then
  does one of two things.  A tile that meets the diagonal is overwritten with the entrywise choice "the column
  vector's entry of this row where the row counter equals the column counter, zero elsewhere"; a tile that misses
  it is overwritten with zeros.  The second test is the negation of the first, so exactly one of the two branches
  runs.  Either way the body loads the 512 × 1 column block, reads the output tile once (the value is not used) and
  stores the whole tile once; the column block is left as it was found.

  Each run below is stated for any pair of whole staging buffers: from the column block at known contents and the
  output tile at any contents, the body ends with the column block unchanged and the output tile overwritten by
  the list of stores the run found (one store covering the tile).
-/
import proofs.«144951_j64776696758817_2_alg».proof.Proof.Gen.KernelIdeal.Frame
import proofs.«144951_j64776696758817_2_alg».proof.Proof.Gen.KernelIdeal.Skeleton
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile that meets the diagonal (first test true, second false): the stores the body makes into the output
    tile, with the proof that the body runs and leaves the column block as it was and the tile overwritten by
    them. -/
noncomputable def runDiag (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) :
    { L1 : List (View.Piece (Elt F) S512x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__diag_kernel i arg2 harg2 arg3 harg3) K } := by
  refine ⟨?_, fun E K => ?run⟩
  case run =>
    simp only [cc0__diag_kernel_eq_skeleton]; unfold cc0__diag_kernel_skel
    unfold owns
    iintro ⟨⟨%f0, %hf0, H0⟩, ⟨%d1, %f1, -, H1⟩, Hk⟩
    obtain rfl := harg2.eq_unread hf0
    sl_exec (disch := first | exact h1 | exact h2)
    sl_step
    iapply Hk
    isplitl [H0]
    · iexists _; isplitr; · ipureintro; exact harg2.read_unread _
      iexact H0
    iexists _; iexact H1

set_option maxHeartbeats 1000000 in
/-- A tile that misses the diagonal (first test false, second true): the stores the body makes into the output
    tile, with the proof that the body runs and leaves the column block as it was and the tile overwritten by
    them. -/
noncomputable def runOff (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) :
    { L1 : List (View.Piece (Elt F) S512x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__diag_kernel i arg2 harg2 arg3 harg3) K } := by
  refine ⟨?_, fun E K => ?run⟩
  case run =>
    simp only [cc0__diag_kernel_eq_skeleton]; unfold cc0__diag_kernel_skel
    unfold owns
    iintro ⟨⟨%f0, %hf0, H0⟩, ⟨%d1, %f1, -, H1⟩, Hk⟩
    obtain rfl := harg2.eq_unread hf0
    sl_exec (disch := first | exact h1 | exact h2)
    sl_step
    iapply Hk
    isplitl [H0]
    · iexists _; isplitr; · ipureintro; exact harg2.read_unread _
      iexact H0
    iexists _; iexact H1

end Cert.KernelIdeal.Tile

end
-- ==== Proof.KIBody.lean ====
/-
  The tiled program runs, and the matrix it writes is named.

  The grid has 16 × 4 points; point (i, j) owns the 512 × 2048 tile of the 8192 × 8192 output whose rows start at
  512 i and whose columns start at 2048 j, and reads the 512 × 1 block of the column vector whose rows start at
  512 i.  The two tests of the body are complementary at every point (decided once over the 64 points), so at every
  point exactly one branch runs and the whole tile is overwritten: after point t the output's staging buffer holds
  `tileAt t` — what the one store of the branch taken there leaves — and the column block's buffer holds the block
  as it was fetched.  The output tile is written back at every point, so whatever the buffer held before the body
  is irrelevant.

  From this the pipeline's launch rule gives the run of the whole program: every weakly fair execution terminates
  without a fault, the output array ends at the blocks `tileAt` written back, and every other array is as the
  region found it — in particular the two argument arrays are unchanged.
-/
import proofs.«144951_j64776696758817_2_alg».proof.Proof.KIRuns

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tests are complementary -/

/-- At every grid point the second test (the tile misses the diagonal) holds exactly when the first (the tile meets
    it) fails: the second is the first's negation, computed on the same two intervals. -/
theorem tests_compl : ∀ t : Fin cfg0.N, k0_cond2 (grid0.coords t) = 1#1 ↔ ¬k0_cond1 (grid0.coords t) = 1#1 :=
  (by decide +kernel : ∀ t : Fin grid0.N, k0_cond2 (grid0.coords t) = 1#1 ↔ ¬k0_cond1 (grid0.coords t) = 1#1)

/-! ## What a branch leaves in the output tile -/

/-- One staging buffer of the output window, through which a tile's contents are stated (the choice does not
    matter: the stores cover the tile). -/
abbrev VO : View sig .tc .vmem S512x2048 .f32 := (Memref.whole cc0_stg1_0 : Memref sig .tc .vmem S512x2048 .f32).view
/-- Each window's current staging buffer at point `t`, as the pipeline passes it to the body. -/
abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)

/-- The stores of a tile that meets the diagonal cover the tile. -/
theorem coverDiag (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) (y : S512x2048.Idx) :
    ∃ pc ∈ (runDiag c i arg2 harg2 arg3 harg3 h1 h2 x0).1, y ∈ pc.1.set :=
  View.cover_of_tiledL (runDiag c i arg2 harg2 arg3 harg3 h1 h2 x0).1 S512x2048.size (by sl_kernel_rfl) y

/-- What a tile that meets the diagonal holds after the body: its stores read back. -/
def outDiag (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) : Vec F S512x2048 .f32 :=
  VO.read (Elt F) (VO.writes (Elt F) VO.junk (runDiag c i arg2 harg2 arg3 harg3 h1 h2 x0).1)

/-- The stores of a tile that misses the diagonal cover the tile. -/
theorem coverOff (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) (y : S512x2048.Idx) :
    ∃ pc ∈ (runOff c i arg2 harg2 arg3 harg3 h1 h2 x0).1, y ∈ pc.1.set :=
  View.cover_of_tiledL (runOff c i arg2 harg2 arg3 harg3 h1 h2 x0).1 S512x2048.size (by sl_kernel_rfl) y

/-- What a tile that misses the diagonal holds after the body: its stores read back. -/
def outOff (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) : Vec F S512x2048 .f32 :=
  VO.read (Elt F) (VO.writes (Elt F) VO.junk (runOff c i arg2 harg2 arg3 harg3 h1 h2 x0).1)

/-- What the output's staging buffer holds after the body at point `t`: the branch the first test selects there,
    run on the point's buffers and on the column block of the point. -/
def tileAt (c : Dev nD) (t : Fin cfg0.N) : Vec F S512x2048 .f32 :=
  if h1 : k0_cond1 (grid0.coords t) = 1#1 then
    outDiag c (grid0.coords t) (ms0 t) (hs0 t) (ms1 t) (hs1 t) h1 (fun h2 => (tests_compl t).mp h2 h1) (iblk m c 0 t)
  else
    outOff c (grid0.coords t) (ms0 t) (hs0 t) (ms1 t) (hs1 t) h1 ((tests_compl t).mpr h1) (iblk m c 0 t)

theorem tileAt_diag (c : Dev nD) (t : Fin cfg0.N) (h1 : k0_cond1 (grid0.coords t) = 1#1) :
    tileAt m c t = outDiag c (grid0.coords t) (ms0 t) (hs0 t) (ms1 t) (hs1 t) h1 (fun h2 => (tests_compl t).mp h2 h1) (iblk m c 0 t) :=
  dif_pos h1

theorem tileAt_off (c : Dev nD) (t : Fin cfg0.N) (h1 : ¬k0_cond1 (grid0.coords t) = 1#1) :
    tileAt m c t = outOff c (grid0.coords t) (ms0 t) (hs0 t) (ms1 t) (hs1 t) h1 ((tests_compl t).mpr h1) (iblk m c 0 t) :=
  dif_neg h1

/-! ## The pipeline's proof data -/

/-- The proof data of the one pipeline on core `c`: the arrays as the region finds them; after the body at point
    `t` the column block's buffer at its block and the output's at `tileAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = tileAt m c t := by dsimp only [dats]

/-- The column block's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`: the invariant, the core's debts, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- What the body returns of the output's buffer, in the cases the launch rule distinguishes: a point at which the
    body stores nothing and the tile is not written back would hand the buffer back as found; every other point
    leaves it at the stated contents. -/
def tilePost (c : Dev nD) (t : Fin cfg0.N) : sProp 𝕄 :=
  match cfg0.idle 1 (cfg0.grid.coords t) with
  | true =>
    match (cfg0.win 1).flush t with
    | false => iprop(∃ d, owns (c : Thread nD τ) (ms1 t) fullShare ((dats m 0 c).before 1 t d))
    | true => owns (c : Thread nD τ) (ms1 t) fullShare ((dats m 0 c).after 1 t)
  | false => owns (c : Thread nD τ) (ms1 t) fullShare ((dats m 0 c).after 1 t)

/-- The tile is written back at every point, so the first of those cases never arises. -/
theorem tilePost_eq (c : Dev nD) (t : Fin cfg0.N) :
    tilePost m c t = owns (c : Thread nD τ) (ms1 t) fullShare ((dats m 0 c).after 1 t) := by
  unfold tilePost
  rw [flush0_1 t]
  cases cfg0.idle 1 (cfg0.grid.coords t) <;> rfl

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ tilePost m c t)

set_option maxHeartbeats 800000 in
/-- The body at any point: the column block's buffer holds its block; the first test says which branch runs, the
    second is then decided by complementarity; that branch's run applies; the invariant passes through unread and
    the core owes nothing throughout; the tile ends at the branch's stores read back, since they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [tilePost_eq, show (dats m 0 c).Φ t.succ = (dats m 0 c).Φ t.castSucc from rfl,
    show (dats m 0 c).owesAt () t.succ = (dats m 0 c).owesAt () t.castSucc from rfl,
    after0_0, after0_1]
  by_cases h1 : k0_cond1 (grid0.coords t) = 1#1
  · rw [tileAt_diag m c t h1]
    unfold outDiag
    iintro ⟨HΦ, Ho, ⟨%d0, H0⟩, ⟨%d1, H1⟩⟩
    iapply ((runDiag c (grid0.coords t) _ _ _ _ h1 (fun h2 => (tests_compl t).mp h2 h1) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverDiag c _ _ _ _ _ _ _ _)
  · rw [tileAt_off m c t h1]
    unfold outOff
    iintro ⟨HΦ, Ho, ⟨%d0, H0⟩, ⟨%d1, H1⟩⟩
    iapply ((runOff c (grid0.coords t) _ _ _ _ h1 ((tests_compl t).mpr h1) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverOff c _ _ _ _ _ _ _ _)

/-- The launch rule's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- From any memory with zero counters every weakly fair execution of the program terminates, and every final
    state has each array of the pipeline at what the launch rule computes from the proof data — the output array at
    the tiles written back — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile

end
-- ==== Proof.DiagSpec.lean ====
/-
  The common value of the two programs, stated once over the argument arrays.

  Both programs first form the vector d with d r = x r · (k r read as a signed integer, then as a real) and then lay
  it out on the diagonal of a square matrix: entry (r, c) of the result is d r when r = c and zero when r ≠ c.
  The tiled program writes the matrix block by block (a block that meets the diagonal compares a row counter with a
  column counter entry by entry; a block that misses it is filled with zero); the reference compares two
  whole-matrix counters.  Over the extended reals both are the function `G` below.  No algebraic law is involved, so
  nothing here asks the inputs to be finite.
-/
import Idealize.ShloMosaic.PureOps.Ideal
import Idealize.ShloMosaic.Lib.ValueIdx

noncomputable section

namespace Cert.DiagSpec

open Idealize.ShloMosaic Idealize.ShloMosaic.ValueIdx

/-- The vector that goes on the diagonal: entry `r` is `x r` times the integer `k r` (signed) as a real. -/
def scaled (x : FVec Ideal ⟨1, ![8192]⟩ .f32) (k : IVec ⟨1, ![8192]⟩ 32) : FVec Ideal ⟨1, ![8192]⟩ .f32 :=
  mulf x (sitofp .f32 k)

/-- The diagonal matrix of `scaled x k`: entry `(r, c)` is `scaled x k r` when `r = c`, and zero otherwise. -/
def G (x : FVec Ideal ⟨1, ![8192]⟩ .f32) (k : IVec ⟨1, ![8192]⟩ 32) : FVec Ideal ⟨2, ![8192, 8192]⟩ .f32 :=
  fun j => if (j 0).val = (j 1).val then scaled x k (ix1 (⟨(j 0).val, idx2_lt0 j⟩ : Fin 8192))
    else Ideal.ofBits .f32 0x00000000#32

/-- On the diagonal the matrix holds the vector. -/
theorem G_diag (x : FVec Ideal ⟨1, ![8192]⟩ .f32) (k : IVec ⟨1, ![8192]⟩ 32) (r c : Fin 8192) (h : r.val = c.val) :
    G x k (ix2 r c) = scaled x k (ix1 r) := by
  unfold G; rw [if_pos h]

/-- Off the diagonal the matrix is zero. -/
theorem G_off (x : FVec Ideal ⟨1, ![8192]⟩ .f32) (k : IVec ⟨1, ![8192]⟩ 32) (r c : Fin 8192) (h : r.val ≠ c.val) :
    G x k (ix2 r c) = Ideal.ofBits .f32 0x00000000#32 := by
  unfold G; rw [if_neg h]

end Cert.DiagSpec

end
-- ==== Proof.DiagCount.lean ====
/-
  The counters of a tile, as numbers.

  Inside the tile at grid point (i, j) the row counter of entry (p, q) is the 32-bit word 512 i + p and the column
  counter is the word 2048 j + q, with i < 16, j < 4, p < 512, q < 2048: all far below 2^32, so nothing wraps, and
  the words are equal exactly when the numbers are.  A tile meets the diagonal exactly when j = i / 4 (four row
  blocks of 512 fit in one column block of 2048); in a tile that misses it no row counter equals any column
  counter.
-/
import Idealize.ShloMosaic.PureOps
import Idealize.ShloMosaic.Lib.Affine

namespace Cert.DiagCount

open Idealize.ShloMosaic

/-- The row counter: the tile's first row, a multiple of 512, plus the row inside the tile. -/
theorem row_word (i p : Nat) :
    IntOp.addi (Scalar.muli (BitVec.ofNat 32 i) 512#32) (BitVec.ofNat 32 p) = BitVec.ofNat 32 (i * 512 + p) := by
  simp only [IntOp.addi, Scalar.muli, IntOp.muli, BitVec.ofNat_add, BitVec.ofNat_mul]

/-- The column counter: the tile's first column, a multiple of 2048, plus the column inside the tile. -/
theorem col_word (j q : Nat) :
    IntOp.addi (Scalar.muli (BitVec.ofNat 32 j) 2048#32) (BitVec.ofNat 32 q) = BitVec.ofNat 32 (j * 2048 + q) := by
  simp only [IntOp.addi, Scalar.muli, IntOp.muli, BitVec.ofNat_add, BitVec.ofNat_mul]

/-- Two numbers below 2^32 are equal as 32-bit words exactly when they are equal. -/
theorem word_eq_iff (a b : Nat) (ha : a < 4294967296) (hb : b < 4294967296) :
    BitVec.ofNat 32 a = BitVec.ofNat 32 b ↔ a = b := by
  constructor
  · intro h
    have := congrArg BitVec.toNat h
    simp only [BitVec.toNat_ofNat] at this
    rw [Nat.mod_eq_of_lt (by omega), Nat.mod_eq_of_lt (by omega)] at this
    exact this
  · intro h; rw [h]

/-- The comparison of the two counters holds exactly when the entry is on the diagonal of the whole matrix. -/
theorem counters (i j p q : Nat) (hi : i < 16) (hj : j < 4) (hp : p < 512) (hq : q < 2048) :
    IntOp.cmpi .eq (IntOp.addi (Scalar.muli (BitVec.ofNat 32 i) 512#32) (BitVec.ofNat 32 p))
      (IntOp.addi (Scalar.muli (BitVec.ofNat 32 j) 2048#32) (BitVec.ofNat 32 q)) = 1#1 ↔ i * 512 + p = j * 2048 + q := by
  rw [row_word, col_word, IntOp.cmpi_eq, word_eq_iff _ _ (by omega) (by omega)]

/-- A tile whose column block is not the one its row block lies in has no entry on the diagonal. -/
theorem miss (i j p q : Nat) (hj : j ≠ i / 4) (hp : p < 512) (hq : q < 2048) : i * 512 + p ≠ j * 2048 + q := by
  omega

end Cert.DiagCount
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KIValue.lean ====
/-
  The matrix the tiled program writes is the diagonal matrix of the product vector.

  Three steps.  (1) What a branch leaves in the output tile is its payload: the one store covers the tile, so the
  tile holds the stored vector — for a tile that meets the diagonal the entrywise choice between the column block
  and zero by the comparison of the two counters, for a tile that misses it the zero vector.  (2) Read at entry
  (p, q) of the tile at grid point (i, j), the choice is the column block's entry p when 512 i + p = 2048 j + q and
  zero otherwise; the column block's entry p is entry 512 i + p of the column array, which the host operations before
  the region computed as the product vector reshaped to a column; and a tile misses the diagonal exactly when
  j ≠ i / 4, in which case no entry of it has equal counters.  So every point writes back its block of the diagonal
  matrix `G`.  (3) The tiles of the 16 × 4 points cover the 8192 × 8192 array (entry (r, c) lies in the tile of
  point (r / 512, c / 2048)), so the array ends holding `G` everywhere.
-/
import proofs.«144951_j64776696758817_2_alg».proof.Proof.KIBody
import proofs.«144951_j64776696758817_2_alg».proof.Proof.DiagSpec
import proofs.«144951_j64776696758817_2_alg».proof.Proof.DiagCount
import proofs.«144951_j64776696758817_2_alg».proof.Proof.LibColumnCast
import proofs.«144951_j64776696758817_2_alg».proof.Proof.LibColumnBroadcast
import Idealize.ShloMosaic.Lib.Pipeline.Value
import Idealize.ShloMosaic.Lib.ValueIdx
import Idealize.ShloMosaic.Lib.StableHlo.Run

set_option maxRecDepth 16384

noncomputable section

namespace Cert.KernelIdeal.Tile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The tiles are their payloads (any float instance) -/

section Pieces

variable {F : FTy → Type} [FloatOps F]

/-- The offsets of the whole-tile rectangle are zero on both axes. -/
theorem hz : (![0, 0] : Fin 2 → Nat) = fun _ => 0 := funext fun a => by fin_cases a <;> rfl

/-- A tile that meets the diagonal holds the entrywise choice computed from the column block: its one store covers
    the tile, and the column block it loaded is the block it was handed. -/
theorem outDiag_eq (c : Dev nD) (i : grid0.Coords) (arg2 : Memref sig .tc .vmem S512x1 .f32) (harg2 : arg2.IsWhole)
    (arg3 : Memref sig .tc .vmem S512x2048 .f32) (harg3 : arg3.IsWhole) (h1 : k0_cond1 i = 1#1) (h2 : ¬k0_cond2 i = 1#1)
    (x0 : Vec F S512x1 .f32) : outDiag (F := F) c i arg2 harg2 arg3 harg3 h1 h2 x0 = k0_pay1 i x0 := by
  unfold outDiag
  rw [View.read_writes_eq_canon _ _ _ (coverDiag c i arg2 harg2 arg3 harg3 h1 h2 x0)]
  unfold runDiag
  dsimp only
  rw [View.canon_unit_zero (S := S512x2048) hz]
  simp only [View.readAt_eq_ld, harg2.read_unread, View.ld_unit_zero (S := S512x1) hz]

/-- A tile that misses the diagonal holds the zero vector: its one store covers the tile. -/
theorem outOff_eq (c : Dev nD) (i : grid0.Coords) (arg2 : Memref sig .tc .vmem S512x1 .f32) (harg2 : arg2.IsWhole)
    (arg3 : Memref sig .tc .vmem S512x2048 .f32) (harg3 : arg3.IsWhole) (h1 : ¬k0_cond1 i = 1#1) (h2 : k0_cond2 i = 1#1)
    (x0 : Vec F S512x1 .f32) : outOff (F := F) c i arg2 harg2 arg3 harg3 h1 h2 x0 = k0_pay2 := by
  unfold outOff
  rw [View.read_writes_eq_canon _ _ _ (coverOff c i arg2 harg2 arg3 harg3 h1 h2 x0)]
  unfold runOff
  dsimp only
  rw [View.canon_unit_zero (S := S512x2048) hz]

end Pieces

/-! ## The payloads, entry by entry, over the extended reals -/

/-- Entry `(p, q)` of the choice at grid point `i`: the row counter is `512 · i 0 + p`, the column counter
    `2048 · i 1 + q`; where they agree the entry is the column block's entry in row `p` (the column repeated along
    the row), elsewhere the zero constant. -/
theorem pay1_apply (i : grid0.Coords) (x0 : Vec Ideal S512x1 .f32) (p : Fin 512) (q : Fin 2048) :
    k0_pay1 (F := Ideal) i x0 (ix2 p q)
      = if (i 0).val * 512 + p.val = (i 1).val * 2048 + q.val then x0 (ix2 p (0 : Fin 1)) else Ideal.ofBits .f32 0x00000000#32 := by
  have hi : (i 0).val < 16 := (i 0).isLt
  have hj : (i 1).val < 4 := (i 1).isLt
  have hsel : k0_pay1 (F := Ideal) i x0 (ix2 p q)
      = Scalar.select (IntOp.cmpi .eq
            (IntOp.addi (Scalar.muli (BitVec.ofNat 32 (i 0).val) 512#32) (iota .tc S512x2048 32 [0] iota_S512x2048_d0_w32 (ix2 p q)))
            (IntOp.addi (Scalar.muli (BitVec.ofNat 32 (i 1).val) 2048#32) (iota .tc S512x2048 32 [1] iota_S512x2048_d1_w32 (ix2 p q))))
          (broadcastTo S512x2048 (shapeCast S512x1 (shapeCast S512x1 x0 shapeCasts_S512x1_S512x1) shapeCasts_S512x1_S512x1)
            broadcasts_S512x1_S512x2048 (ix2 p q))
          (Ideal.ofBits .f32 0x00000000#32) := rfl
  rw [hsel, iota_single_apply, iota_single_apply, Cert.Lib.broadcastTo_a1_ab_apply, shapeCast_self, shapeCast_self]
  show Scalar.select (IntOp.cmpi .eq
      (IntOp.addi (Scalar.muli (BitVec.ofNat 32 (i 0).val) 512#32) (BitVec.ofNat 32 p.val))
      (IntOp.addi (Scalar.muli (BitVec.ofNat 32 (i 1).val) 2048#32) (BitVec.ofNat 32 q.val))) _ _ = _
  by_cases h : (i 0).val * 512 + p.val = (i 1).val * 2048 + q.val
  · rw [(Cert.DiagCount.counters _ _ _ _ hi hj p.isLt q.isLt).mpr h, select_one, if_pos h]
  · rw [eq_zero_of_ne_one (fun hh => h ((Cert.DiagCount.counters _ _ _ _ hi hj p.isLt q.isLt).mp hh)), select_zero, if_neg h]

/-- Every entry of the zero vector is the zero constant. -/
theorem pay2_apply (y : S512x2048.Idx) : k0_pay2 (F := Ideal) y = Ideal.ofBits .f32 0x00000000#32 := rfl

/-! ## The grid: where each block sits, which tiles meet the diagonal, and that the tiles cover -/

/-- The printed index maps, decided over the 64 points: the column block of point `(i, j)` is block `i` of the column
    array; the output tile is block `(i, j)` of the matrix. -/
theorem idx_facts : ∀ t : Fin cfg0.N, win0_0.index t (0 : Fin 2) = (grid0.coords t 0).val
    ∧ win0_0.index t (1 : Fin 2) = 0
    ∧ win0_1.index t (0 : Fin 2) = (grid0.coords t 0).val
    ∧ win0_1.index t (1 : Fin 2) = (grid0.coords t 1).val :=
  (by decide +kernel : ∀ t : Fin grid0.N, _)

/-- The first test of the body in closed form, decided over the 64 points: the tile of point `(i, j)` meets the
    diagonal exactly when `j = i / 4`. -/
theorem meets_iff : ∀ t : Fin cfg0.N, k0_cond1 (grid0.coords t) = 1#1 ↔ (grid0.coords t 1).val = (grid0.coords t 0).val / 4 :=
  (by decide +kernel : ∀ t : Fin grid0.N, _)

/-- Every block of the matrix is some point's tile. -/
theorem idx_onto : ∀ (q0 : Fin 16) (q1 : Fin 4), ∃ t : Fin cfg0.N, win0_1.index t = ![q0.val, q1.val] :=
  (by decide +kernel : ∀ (q0 : Fin 16) (q1 : Fin 4), ∃ t : Fin grid0.N, win0_1.index t = ![q0.val, q1.val])

theorem row_lt (t : Fin cfg0.N) (p : Fin 512) : (grid0.coords t 0).val * 512 + p.val < 8192 := by
  have h : (grid0.coords t 0).val < 16 := (grid0.coords t 0).isLt
  have := p.isLt; omega

theorem col_lt (t : Fin cfg0.N) (q : Fin 2048) : (grid0.coords t 1).val * 2048 + q.val < 8192 := by
  have h : (grid0.coords t 1).val < 4 := (grid0.coords t 1).isLt
  have := q.isLt; omega

/-- Row `p` of the column block at point `(i, j)` is row `512 i + p` of the column array. -/
theorem emb0 (t : Fin cfg0.N) (p : Fin 512) (u : Fin 1) :
    ((cfg0.win 0).blk t).view.emb (ix2 p u) = ix2 (⟨(grid0.coords t 0).val * 512 + p.val, row_lt t p⟩ : Fin 8192) (0 : Fin 1) := by
  obtain ⟨e0, e1, e2, e3⟩ := idx_facts t
  funext a; apply Fin.ext
  match a with
  | ⟨0, _⟩ => show win0_0.index t (0 : Fin 2) * 512 + 1 * p.val = _; rw [e0]; show _ = (grid0.coords t 0).val * 512 + p.val; omega
  | ⟨1, _⟩ => show win0_0.index t (1 : Fin 2) * 1 + 1 * u.val = 0; rw [e1]; omega

/-- Entry `(p, q)` of the tile at point `(i, j)` is entry `(512 i + p, 2048 j + q)` of the matrix. -/
theorem emb1 (t : Fin cfg0.N) (p : Fin 512) (q : Fin 2048) :
    ((cfg0.win 1).blk t).view.emb (ix2 p q) = ix2 (⟨(grid0.coords t 0).val * 512 + p.val, row_lt t p⟩ : Fin 8192) (⟨(grid0.coords t 1).val * 2048 + q.val, col_lt t q⟩ : Fin 8192) := by
  obtain ⟨e0, e1, e2, e3⟩ := idx_facts t
  funext a; apply Fin.ext
  match a with
  | ⟨0, _⟩ => show win0_1.index t (0 : Fin 2) * 512 + 1 * p.val = _; rw [e2]; show _ = (grid0.coords t 0).val * 512 + p.val; omega
  | ⟨1, _⟩ => show win0_1.index t (1 : Fin 2) * 2048 + 1 * q.val = _; rw [e3]; show _ = (grid0.coords t 1).val * 2048 + q.val; omega

/-! ## The column array the region finds -/

variable (m : (ℓ : Loc nD τ sig) → Buf (Elt Ideal) ℓ) (ρ : Dev nD → PrngReg)

/-- The host operations before the region leave, in the column array, the product of the float argument with the
    integer argument read as reals, reshaped from a vector to a column. -/
theorem col_eq (c : Dev nD) : @Eq (FVec Ideal S8192x1 .f32) (V m c main_v2)
    (shapeCast S8192x1 (mulf (m ((c : Thread nD τ).loc main_arg0) : FVec Ideal S8192 .f32) (sitofp .f32 (m ((c : Thread nD τ).loc main_arg1) : IVec S8192 32))) shapeCasts_S8192_S8192x1) := by
  dsimp only [Gen.V, Gen.hostOps0]
  after_results
  rfl

/-- Row `r` of the column array is entry `r` of the product vector. -/
theorem col_apply (c : Dev nD) (r : Fin 8192) :
    V m c main_v2 (ix2 r (0 : Fin 1)) = Cert.DiagSpec.scaled (m ((c : Thread nD τ).loc main_arg0)) (m ((c : Thread nD τ).loc main_arg1)) (ix1 r) :=
  (congrFun (col_eq m c) (ix2 r (0 : Fin 1))).trans (Cert.Lib.shapeCast_a_a1_apply _ _ r 0)

/-- Row `p` of the column block at point `(i, j)` is entry `512 i + p` of the product vector. -/
theorem blk0_apply (c : Dev nD) (t : Fin cfg0.N) (p : Fin 512) :
    iblk m c 0 t (ix2 p (0 : Fin 1))
      = Cert.DiagSpec.scaled (m ((c : Thread nD τ).loc main_arg0)) (m ((c : Thread nD τ).loc main_arg1))
          (ix1 (⟨(grid0.coords t 0).val * 512 + p.val, row_lt t p⟩ : Fin 8192)) := by
  show V m c main_v2 (((cfg0.win 0).blk t).view.emb (ix2 p (0 : Fin 1))) = _
  rw [emb0 t p 0]
  exact col_apply m c _

/-! ## What each point writes back, the cover, and the final array -/

/-- What point `t` writes back is its block of the diagonal matrix of the product vector: in a tile that meets the
    diagonal the choice agrees with the matrix entry by entry; a tile that misses it is zero, as the matrix is there. -/
theorem flushed_eq (c : Dev nD) (t : Fin cfg0.N) :
    (dats m 0 c).flushed 1 t = ((cfg0.win 1).blk t).view.read (Elt Ideal)
      (Cert.DiagSpec.G (m ((c : Thread nD τ).loc main_arg0)) (m ((c : Thread nD τ).loc main_arg1))) := by
  show (cfg0.win 1).cut (grid0.coords t) ((dats m 0 c).after 1 t) = _
  rw [after0_1]
  funext y
  obtain ⟨p, q, rfl⟩ : ∃ (p : Fin 512) (q : Fin 2048), y = ix2 p q := ⟨y 0, y 1, eq_ix2 y⟩
  show tileAt m c t (ix2 p q) = Cert.DiagSpec.G _ _ (((cfg0.win 1).blk t).view.emb (ix2 p q))
  rw [emb1 t p q]
  by_cases h1 : k0_cond1 (grid0.coords t) = 1#1
  · rw [tileAt_diag m c t h1, outDiag_eq, pay1_apply]
    by_cases h : (grid0.coords t 0).val * 512 + p.val = (grid0.coords t 1).val * 2048 + q.val
    · rw [if_pos h, Cert.DiagSpec.G_diag _ _ _ _ h]
      exact blk0_apply m c t p
    · rw [if_neg h, Cert.DiagSpec.G_off _ _ _ _ h]
  · rw [tileAt_off m c t h1, outOff_eq, pay2_apply,
      Cert.DiagSpec.G_off _ _ _ _ (Cert.DiagCount.miss _ _ _ _ (fun e => h1 ((meets_iff t).mpr e)) p.isLt q.isLt)]

/-- An entry of the matrix is in point `t`'s tile exactly when each coordinate is in the tile's range on its axis. -/
theorem mem_blk (t : Fin cfg0.N) (i : S8192x8192.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v3).slice (win0_1.rect t)).set ↔ _
  rw [View.set_slice_whole, Rect.mem_set_unit]
  exact Iff.rfl

/-- The tiles cover the matrix: entry `(r, c)` lies in the tile of the point whose block is `(r / 512, c / 2048)`,
    and every point writes its tile back. -/
theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto ⟨(i 0).val / 512, by omega⟩ ⟨(i 1).val / 2048, by omega⟩
  have q0 : win0_1.index t (0 : Fin 2) = (i 0).val / 512 := congrFun ht 0
  have q1 : win0_1.index t (1 : Fin 2) = (i 1).val / 2048 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- After every write-back the output array holds the diagonal matrix of the product vector. -/
theorem final (c : Dev nD) : (dats m 0 c).arrAt 1 cfg0.N
    = Cert.DiagSpec.G (m ((c : Thread nD τ).loc main_arg0)) (m ((c : Thread nD τ).loc main_arg1)) :=
  (dats m 0 c).arrAt_eq_of_cover 1 _ (fun t _ => flushed_eq m c t) cover

/-- The run of the tiled program over the extended reals: it terminates without a fault with the result array at the
    diagonal matrix of the product of its two arguments, and the arguments unchanged. -/
theorem run : θ_run defs (onTc (τ := τ) (main (F := Ideal))) ⟨m, fun _ => 0, ρ⟩ fun r => ∀ c : Dev nD,
      r.2.mem ((c : Thread nD τ).loc main_v3)
        = Cert.DiagSpec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Tile

end
-- ==== Proof.RefRun.lean ====
/-
  The reference program's @main as one straight line of host operations, and its run.

  @main converts the integer vector to reals and multiplies it into the float vector; the call of `_diag` then pads
  the product by nothing, forms the two counters of a square matrix (one counting down the rows, one along the
  columns), adds a broadcast zero to the row counter, compares the two counters for equality, and lays the vector out
  as a column; the call of `_where` inside it broadcasts that column along the rows and the scalar zero over the whole
  matrix and selects between the two by the comparison.  A call means its callee's body on the operands, so with
  the two bodies unfolded at their call sites @main is the fifteen operations listed below, each over the buffer the
  call's record names for its value.  Every weakly fair execution of such a line terminates with every buffer at the
  fold of the operations' results over the launch contents.
-/
import proofs.«144951_j64776696758817_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifteen operations in order, the two calls unfolded: @main's own two (the conversion and the product),
    `_diag`'s ten into the buffers of its call's record, `_where`'s three into the buffers of the nested record, the
    last of which is the program's result. -/
abbrev ops : List (HloOp τ sig (Elt F)) :=
  [ unary main_arg1 main_v0 (sitofp .f32 : (⟨S8192, .i32⟩ : BufTy).Contents (Elt F) → (⟨S8192, .f32⟩ : BufTy).Contents (Elt F)),
    binary main_arg0 main_v0 main_v1 (mulf : (⟨S8192, .f32⟩ : BufTy).Contents (Elt F) → (⟨S8192, .f32⟩ : BufTy).Contents (Elt F) → (⟨S8192, .f32⟩ : BufTy).Contents (Elt F)),
    TRef.nullary main_call0.cst (constant S_ .f32 0x00000000#32),
    TRef.binary (.of main_v1) main_call0.cst main_call0.v0 (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select ]

/-- @main is that straight line: the two functions' definitions unfolded at their calls, both sides are one chain of
    steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., binary_bufs_sub .., nullary_bufs_sub .., nullary_bufs_sub ..,
    nullary_bufs_sub .., unary_bufs_sub .., binary_bufs_sub .., binary_bufs_sub .., unary_bufs_sub .., nullary_bufs_sub ..,
    unary_bufs_sub .., unary_bufs_sub .., ternary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The value of the reference program: its result buffer holds the diagonal matrix `Cert.DiagSpec.G` of its two
  arguments, and the arguments are left as they were.

  The run of the straight line (RefRun.lean) leaves every buffer at the fold of the operations' results over the launch
  contents.  Read at the result buffer, the fold is one composed term of the two arguments x (the float vector) and k
  (the integer vector): a select, by the comparison of a row counter (plus a broadcast zero) with a column counter,
  between the product x · k laid out as a column and repeated along the rows, and the scalar zero repeated everywhere
  (`out` below).  That term is then read entry by entry.  At (r, c):

    • the row counter reads the word of r and the column counter the word of c; adding the zero word changes nothing;
      both numbers are below 2³², so the two words are equal exactly when r = c, and the comparison's bit is 1 on the
      diagonal and 0 off it;
    • the column repeated along the rows reads the column at row r, which reads the padded vector at r, and a padding
      of no entries on either side reads the vector itself at r: the product x r · k r;
    • the repeated scalar reads the zero constant.

  So the entry is x r · k r when r = c and zero otherwise, which is `G x k` at (r, c).
-/
import proofs.«144951_j64776696758817_2_alg».proof.Proof.RefRun
import proofs.«144951_j64776696758817_2_alg».proof.Proof.DiagSpec
import Idealize.ShloMosaic.Lib.IdealHost
import Idealize.ShloMosaic.Lib.KernelVsHost

noncomputable section

namespace Cert.ReferenceIdeal.RefValue

section Term

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun

/-- What the fifteen operations compose to at the result, as a function of the two arguments' contents: the select
    between the product vector, padded by nothing, laid out as a column and repeated along the rows, and the scalar
    zero repeated over the matrix, by the comparison of the row counter plus a broadcast zero with the column counter. -/
def out (x : FVec Ideal S8192 .f32) (k : IVec S8192 32) : FVec Ideal S8192x8192 .f32 :=
  select
    (cmpi .eq (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] (mulf x (sitofp .f32 k)) (constant (F := Ideal) S_ .f32 0x00000000#32) pads_S8192_S8192_000 h_S_)))
    (broadcastInDim S8192x8192 ![] bcast_S_S8192x8192 (constant (F := Ideal) S_ .f32 0x00000000#32))

/-- The fold of the operations at the result buffer is that term of the contents of the two argument buffers: each
    operation's result is rewritten at its own buffer to its function's value and at any other buffer to what was
    there, and the typed references' transports are the identity at these literal references. -/
theorem out_eq (V : Valuation τ sig (Elt Ideal)) :
    after (ops (F := Ideal)) V (main_v2 : DevRef τ sig) = out (V (main_arg0 : DevRef τ sig)) (V (main_arg1 : DevRef τ sig)) := by
  after_results
  rfl

/-- No operation writes the first argument's buffer. -/
theorem arg0_eq (V : Valuation τ sig (Elt Ideal)) :
    after (ops (F := Ideal)) V (main_arg0 : DevRef τ sig) = V (main_arg0 : DevRef τ sig) := by
  after_results

/-- No operation writes the second argument's buffer. -/
theorem arg1_eq (V : Valuation τ sig (Elt Ideal)) :
    after (ops (F := Ideal)) V (main_arg1 : DevRef τ sig) = V (main_arg1 : DevRef τ sig) := by
  after_results

/-- The comparison read at (r, c): the row counter reads the word of r, the broadcast scalar the zero word, the column
    counter the word of c. -/
theorem counters_apply (r c : Fin 8192) :
    cmpi .eq (addi (iotaInDim S8192x8192 32 0) (broadcastInDim S8192x8192 ![] bcast_S_S8192x8192 (constantI S_ 32 0#32)))
        (iotaInDim S8192x8192 32 1) (ix2 r c)
      = IntOp.cmpi .eq (IntOp.addi (BitVec.ofNat 32 r.val) 0#32) (BitVec.ofNat 32 c.val) := rfl

/-- On the diagonal the two words are the same word, so the comparison's bit is 1. -/
theorem counters_diag (r c : Fin 8192) (h : r.val = c.val) :
    IntOp.cmpi .eq (IntOp.addi (BitVec.ofNat 32 r.val) 0#32) (BitVec.ofNat 32 c.val) = 1#1 := by
  rw [h]
  show BitVec.ofBool (BitVec.ofNat 32 c.val + 0#32 == BitVec.ofNat 32 c.val) = 1#1
  rw [BitVec.add_zero, beq_self_eq_true]
  rfl

/-- Off the diagonal the two words differ — r and c are below 8192, far below 2³², so each word determines its
    number — and the comparison's bit is 0. -/
theorem counters_off (r c : Fin 8192) (h : r.val ≠ c.val) :
    IntOp.cmpi .eq (IntOp.addi (BitVec.ofNat 32 r.val) 0#32) (BitVec.ofNat 32 c.val) = 0#1 := by
  have hne : BitVec.ofNat 32 r.val ≠ BitVec.ofNat 32 c.val := by
    intro e
    have e' := congrArg BitVec.toNat e
    rw [BitVec.toNat_ofNat, BitVec.toNat_ofNat] at e'
    have hr := r.isLt
    have hc := c.isLt
    omega
  show BitVec.ofBool (BitVec.ofNat 32 r.val + 0#32 == BitVec.ofNat 32 c.val) = 0#1
  rw [BitVec.add_zero, beq_eq_false_iff_ne.mpr hne]
  rfl

/-- A vector padded by nothing, laid out as a column and repeated along the rows, read at (r, c): the vector at r.
    The repetition along the rows reads the column at (r, 0); the column reads the padded vector at r; the padding
    has no entry in front of, behind or between the vector's, so r is inside and reads the vector at r. -/
theorem column_apply (y : FVec Ideal S8192 .f32) (v : FVec Ideal S_ .f32) (r c : Fin 8192) :
    broadcastInDim S8192x8192 ![0, 1] bcast_S8192x1_S8192x8192_0_1
      (broadcastInDim S8192x1 ![0] bcast_S8192_S8192x1_0
        (pad S8192 ![0] ![0] ![0] y v pads_S8192_S8192_000 h_S_)) (ix2 r c) = y (ix1 r) := by
  refine (broadcastInDim_apply _ _ _ (ix2 r c) (ix2 r (0 : Fin 1))
    (fun a => match a with | ⟨0, _⟩ => rfl | ⟨1, _⟩ => rfl)).trans ?_
  refine (broadcastInDim_apply _ _ _ (ix2 r (0 : Fin 1)) (ix1 r)
    (fun a => match a with | ⟨0, _⟩ => rfl)).trans ?_
  exact pad_apply_of_inside _ _ _ y v pads_S8192_S8192_000 h_S_ (ix1 r) (ix1 r)
    (fun a => match a with | ⟨0, _⟩ => by show r.val = 0 + r.val * (0 + 1); omega)

/-- The composed term read at (r, c) is the diagonal matrix there: the product at r on the diagonal (the comparison's
    bit is 1 and the select takes the column), the zero constant off it (the bit is 0 and the select takes the
    repeated scalar). -/
theorem out_apply (x : FVec Ideal S8192 .f32) (k : IVec S8192 32) (r c : Fin 8192) :
    out x k (ix2 r c) = Cert.DiagSpec.G x k (ix2 r c) := by
  unfold out
  rw [select_apply, counters_apply, column_apply]
  by_cases h : r.val = c.val
  · rw [counters_diag r c h, select_one, Cert.DiagSpec.G_diag x k r c h]
    rfl
  · rw [counters_off r c h, select_zero, Cert.DiagSpec.G_off x k r c h]
    rfl

/-- Entry by entry, the composed term is the diagonal matrix. -/
theorem out_eq_G (x : FVec Ideal S8192 .f32) (k : IVec S8192 32) : out x k = Cert.DiagSpec.G x k := by
  funext j
  rw [eq_ix2 j]
  exact out_apply x k (j 0) (j 1)

end Term

open Idealize.ShloMosaic Idealize.SL.Sem Cert.ReferenceIdeal

/-- On every device, from any memory with zero counters: every weakly fair execution of the reference's @main
    terminates with the result buffer at the diagonal matrix of the two arguments' launch contents and the two
    argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.DiagSpec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c main_v2).trans (out_eq _)).trans (out_eq_G _ _),
      (h c main_arg0).trans (arg0_eq _),
      (h c main_arg1).trans (arg1_eq _)⟩)
    (Cert.ReferenceIdeal.RefRun.run_main (F := Ideal) m ρ)

end Cert.ReferenceIdeal.RefValue

end
-- ==== Proof.lean ====
/-
  A tiled program that writes the diagonal matrix of a product vector, against the one-line reference.

  Both programs take a float vector x and an integer vector k of length 8192, form d r = x r · (k r as a real), and
  return the 8192 × 8192 matrix with d on the diagonal and zero elsewhere.  The tiled program lays d out as a column
  on the host and then fills the matrix tile by tile on a 16 × 4 grid of 512 × 2048 tiles: a tile that meets the
  diagonal compares a row counter with a column counter entry by entry and chooses between the column's entry and
  zero; a tile that misses it is filled with zero.  The reference builds two whole-matrix counters, compares them, and
  chooses between the column repeated along the rows and zero.

  The five claims:
  · each of the three programs runs to the end without a fault and leaves its arguments unchanged — for the two
    tiled programs (the printed one at machine words, its idealization at extended reals) by the body's run in each
    of its two branches and the pipeline's launch rule; for the reference by its straight-line run;
  · the idealization rewrote nothing, so there is nothing to preserve;
  · over the extended reals both results are the function `Cert.DiagSpec.G` of the arguments, entry by entry: no
    algebraic law joins the two sides (a choice between an entry and zero on each), so the inputs' finiteness is
    not used.
-/
import proofs.«144951_j64776696758817_2_alg».proof.Defs
import proofs.«144951_j64776696758817_2_alg».proof.Proof.Gen.Kernel
import proofs.«144951_j64776696758817_2_alg».proof.Proof.Gen.KernelIdeal
import proofs.«144951_j64776696758817_2_alg».proof.Proof.Gen.ReferenceIdeal
import proofs.«144951_j64776696758817_2_alg».proof.Proof.Gen.Pre_finite_inputs
import proofs.«144951_j64776696758817_2_alg».proof.Proof.KBody
import proofs.«144951_j64776696758817_2_alg».proof.Proof.KIValue
import proofs.«144951_j64776696758817_2_alg».proof.Proof.RefValue
import Idealize.ShloMosaic.Adequacy
import Idealize.ShloMosaic.Init

noncomputable section

namespace Cert.Proof

open Idealize.ShloMosaic Idealize.SL.Sem

/-- The printed tiled program runs and leaves its arguments unchanged. -/
theorem frame_k : Cert.frame_Kernel := fun m ρ _ => Cert.Kernel.Tile.frame m ρ

/-- So does its idealization. -/
theorem frame_ki : Cert.frame_KernelIdeal := fun m ρ _ => Cert.KernelIdeal.Tile.frame m ρ

/-- The reference runs and leaves its arguments unchanged: its run, with what it says of the result dropped. -/
theorem frame_ri : Cert.frame_ReferenceIdeal := fun m ρ _ =>
  (θ_run Cert.ReferenceIdeal.defs _ _).mono (fun _ h c => (h c).2) (Cert.ReferenceIdeal.RefValue.run m ρ)

/-- The idealization is the printed program's own text read over the extended reals: nothing was rewritten. -/
theorem preserves : Cert.preserves_Kernel_KernelIdeal := trivial

/-- Over the extended reals, from memories that agree on the arguments, the tiled program's result array and the
    reference's both end at the diagonal matrix of the product of the arguments. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
